-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64x40 .f32) (main_arg6 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x128 .f32) (main_arg1 : IVec S2x3200000 32) (main_arg2 : FVec F S3200000 .f32) (main_arg3 : FVec F S128x64 .f32) (main_arg4 : FVec F S64 .f32) (main_arg5 : FVec F S64x40 .f32) (main_arg6 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S100000x40 : Shape := ⟨2, ![100000, 40]⟩
abbrev S10000x40 : Shape := ⟨2, ![10000, 40]⟩
abbrev S1x64 : Shape := ⟨2, ![1, 64]⟩
abbrev S3300000x40 : Shape := ⟨2, ![3300000, 40]⟩
abbrev S1x40 : Shape := ⟨2, ![1, 40]⟩

abbrev nBuf : Space → Nat
  | .hbm => 86
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x64, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S3300000x1, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S100000x40, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x40, .f32⟩
  | .hbm, ⟨76, _⟩ => ⟨S3300000x1, .f32⟩
  | .hbm, ⟨77, _⟩ => ⟨S3300000x40, .f32⟩
  | .hbm, ⟨78, _⟩ => ⟨S3300000x40, .f32⟩
  | .hbm, ⟨79, _⟩ => ⟨S_, .f32⟩
  | .hbm, ⟨80, _⟩ => ⟨S100000x40, .f32⟩
  | .hbm, ⟨81, _⟩ => ⟨S3300000x1, .i32⟩
  | .hbm, ⟨82, _⟩ => ⟨S100000x40, .f32⟩
  | .hbm, ⟨83, _⟩ => ⟨S1x40, .f32⟩
  | .hbm, ⟨84, _⟩ => ⟨S100000x40, .f32⟩
  | .hbm, ⟨85, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S64x40, .f32⟩
  | .local _ .vmem, ⟨9, _⟩ => ⟨S10000x40, .f32⟩
  | .local _ .vmem, ⟨10, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x40_S10000x40_1_0_0_1_n_n_wf : DotDims.WF S10000x64 S64x40 S10000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x40.size a ≤ S100000x40.size a
  hwx1_3 : ∀ i : grid1.Coords, EltTy.bits .f32 = 32 ∨ (Rect.block (s := S100000x40) S10000x40.size (cc1_transform_3 i) (hinb1_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x40 : Shape := ⟨2, ![100000, 40]⟩
abbrev S3300000x40 : Shape := ⟨2, ![3300000, 40]⟩
abbrev S1x40 : Shape := ⟨2, ![1, 40]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x64, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S3300000x1, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x40, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x40, .f32⟩
  | .hbm, ⟨82, _⟩ => ⟨S3300000x1, .f32⟩
  | .hbm, ⟨83, _⟩ => ⟨S3300000x40, .f32⟩
  | .hbm, ⟨84, _⟩ => ⟨S3300000x40, .f32⟩
  | .hbm, ⟨85, _⟩ => ⟨S_, .f32⟩
  | .hbm, ⟨86, _⟩ => ⟨S100000x40, .f32⟩
  | .hbm, ⟨87, _⟩ => ⟨S3300000x1, .i32⟩
  | .hbm, ⟨88, _⟩ => ⟨S100000x40, .f32⟩
  | .hbm, ⟨89, _⟩ => ⟨S1x40, .f32⟩
  | .hbm, ⟨90, _⟩ => ⟨S100000x40, .f32⟩
  | .hbm, ⟨91, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x40_S100000x40_1_0_0_1_n_n_wf : DotDims.WF S100000x64 S64x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KernelRun.lean ====
/-
  The idealized kernel's run, with every buffer named.

  @main is seven segments: three stretches of host operations, the first matrix product's region, a stretch, the
  second product's region, and a last stretch. The buffer contents at each boundary are a fold from the launch
  memory: a stretch applies its operations, a region replaces its arrays by what its write-backs leave. The last of
  these folds, at the return, is what every execution ends with: here the segments are run once and the final memory is
  read at EVERY buffer that outlives a region, so that the result buffer and the argument buffers are all available as
  that fold's values. The frame (the arguments end as launched) and the value of the result are both consequences.
-/
import proofs.«148476_j41360535061036_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and at the end every buffer that is not a region's own scratch
    holds the last boundary's contents: the fold of the seven segments from the launch memory. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The run read at the result and at the arguments: the result buffer ends at the last boundary's contents, each
    argument as launched (no stretch and no region writes one). -/
theorem run_result : θ_run defs (onTc (τ := τ) (main (F := F))) ⟨m, fun _ => 0, ρ⟩ (fun r => ∀ c : Dev nD,
      r.2.mem ((c.tc : Thread nD τ).loc main_v62) = W7 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v62 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)
    (run_held m ρ)

end Cert.KernelIdeal.Whole

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.FirstProduct.lean ====
/-
  The first region: ten row blocks of one matrix product.

  The region's grid has ten points. Point t loads rows 10000·t … 10000·t + 9999 of the left array (all 128 columns) and
  the whole right array, multiplies them into a zero accumulator, and writes the [10000, 64] result back as rows
  10000·t … of the output array. Entry (p, q) of that block is Σ_k L(10000·t + p, k) · R(k, q): the same sum that entry
  (10000·t + p, q) of the whole product L·R is. The ten row blocks tile the 100000 rows, so after the region the output
  array is L·R, whatever the region found in the buffers it reads (the statement is over any entry contents V).
-/
import proofs.«148476_j41360535061036_1_alg».proof.Proof.Gen.KernelIdeal.Frame
import proofs.«148476_j41360535061036_1_alg».proof.Proof.LibPlainMatmul
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.FirstProduct

open Cert.KernelIdeal Cert.KernelIdeal.Gen

/-- The product of a [100000, 128] array and a [128, 64] array, entry by entry. -/
def prod (x : S100000x128.Idx → EReal) (w : S128x64.Idx → EReal) : S100000x64.Idx → EReal :=
  fun i => ∑ k : Fin 128, x (ix2 (i 0) k) * w (ix2 k (i 1))

theorem hz : (![0, 0] : Fin 2 → Nat) = fun _ => 0 := funext fun a => by fin_cases a <;> rfl

/-- What the body stores, at entry (p, q) of the block: the row p of the left block against the column q of the
    right array (the narrowing of both operands to bf16 is the identity on extended reals). -/
theorem stored_apply (x0 : Vec Ideal S10000x128 .f32) (x1 : Vec Ideal S128x64 .f32) (p : Fin 10000) (q : Fin 64) :
    k0_pay1 (F := Ideal) x0 x1 (ix2 p q) = ∑ k : Fin 128, x0 (ix2 p k) * x1 (ix2 k q) := by
  unfold k0_pay1
  exact matmul_plain_zero_apply 10000 128 64 none (truncf .bf16 x0 bitsLt_bf16_f32) (truncf .bf16 x1 bitsLt_bf16_f32) p q

/-- The printed index maps over the grid: the left and the output windows move down one block of rows per point,
    the right window stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Entry j of what point t stores is entry (block t's image of j) of the whole product of the two arrays as the
    region finds them. -/
theorem block_entry (c : Dev nD) (t : Fin cfg0.N) (j : S10000x64.Idx) :
    k0_pay1 (F := Ideal) (iblk0 V c 0 t) (iblk0 V c 1 t) j
      = prod (V c main_arg0) (V c main_arg3) (((cfg0.win 2).blk t).view.emb j) := by
  obtain ⟨e00, e01, e10, e11, e20, e21⟩ := index_facts t
  refine (congrArg (k0_pay1 (F := Ideal) (iblk0 V c 0 t) (iblk0 V c 1 t)) (eq_ix2 j)).trans
    ((stored_apply (iblk0 V c 0 t) (iblk0 V c 1 t) (j 0) (j 1)).trans ?_)
  unfold prod
  refine Finset.sum_congr rfl fun k _ => ?_
  have hl : (iblk0 V c 0 t : Vec Ideal S10000x128 .f32) (ix2 (j 0) k)
      = (V c main_arg0 : S100000x128.Idx → EReal) (ix2 ((((cfg0.win 2).blk t).view.emb j) 0) k) := by
    show (V c main_arg0 : S100000x128.Idx → EReal) (((cfg0.win 0).blk t).view.emb (ix2 (j 0) k)) = _
    refine congrArg _ (funext fun a => Fin.ext ?_)
    match a with
    | ⟨0, _⟩ => show win0_0.index t (0 : Fin 2) * 10000 + 1 * (j 0).val = win0_2.index t (0 : Fin 2) * 10000 + 1 * (j 0).val; rw [e00, e20]
    | ⟨1, _⟩ => show win0_0.index t (1 : Fin 2) * 128 + 1 * k.val = k.val; rw [e01]; omega
  have hr : (iblk0 V c 1 t : Vec Ideal S128x64 .f32) (ix2 k (j 1))
      = (V c main_arg3 : S128x64.Idx → EReal) (ix2 k ((((cfg0.win 2).blk t).view.emb j) 1)) := by
    show (V c main_arg3 : S128x64.Idx → EReal) (((cfg0.win 1).blk t).view.emb (ix2 k (j 1))) = _
    refine congrArg _ (funext fun a => Fin.ext ?_)
    match a with
    | ⟨0, _⟩ => show win0_1.index t (0 : Fin 2) * 128 + 1 * k.val = k.val; rw [e10]; omega
    | ⟨1, _⟩ => show win0_1.index t (1 : Fin 2) * 64 + 1 * (j 1).val = win0_2.index t (1 : Fin 2) * 64 + 1 * (j 1).val; rw [e11, e21]
  rw [hl, hr]

/-- What point t writes back is block t of the whole product. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  funext j
  exact block_entry V c t j

/-- An index of the output array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- Row r of the output array is written by point r / 10000. -/
theorem cover (i : S100000x64.Idx) : ∃ t : Fin cfg0.N, (cfg0.win 2).flush t = true ∧ i ∈ ((cfg0.win 2).blk t).view.set := by
  have hN : grid0.N = 10 := N_0
  have hi0 : (i 0).val < 100000 := (i 0).isLt
  have hi1 : (i 1).val < 64 := (i 1).isLt
  have ht : (i 0).val / 10000 < cfg0.N := by show (i 0).val / 10000 < grid0.N; omega
  obtain ⟨e00, e01, e10, e11, e20, e21⟩ := index_facts ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val ∧ (i 1).val < win0_2.index ⟨(i 0).val / 10000, ht⟩ (1 : Fin 2) * 64 + 64
    rw [e21]; omega

/-- After the region the output array holds the whole product of the two arrays the region read. -/
theorem final (c : Dev nD) : (dat0 V c).arrAt 2 cfg0.N = prod (V c main_arg0) (V c main_arg3) :=
  (dat0 V c).arrAt_eq_of_cover 2 (prod (V c main_arg0) (V c main_arg3)) (fun t _ => flushed_eq V c t) cover

end Cert.KernelIdeal.FirstProduct

end
-- ==== Proof.SecondProduct.lean ====
/-
  The second region: ten row blocks of the rectified, biased rows times the second weight array.

  Point t loads rows 10000·t … 10000·t + 9999 of the aggregated array (all 64 columns), the whole bias vector and the
  whole [64, 40] weight array; adds the bias to every row, takes the maximum with zero, multiplies by the weights into a
  zero accumulator and writes the [10000, 40] result back as rows 10000·t … of the output array. Entry (p, q) of that
  block is Σ_k max(A(10000·t + p, k) + b(k), 0) · W(k, q): entry (10000·t + p, q) of ONE whole-array function of A, b and
  W. The ten row blocks tile the rows, so after the region the output array is that function of the arrays the region
  read, whatever they are (the statement is over any entry contents V).
-/
import proofs.«148476_j41360535061036_1_alg».proof.Proof.Gen.KernelIdeal.Frame
import proofs.«148476_j41360535061036_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.SecondProduct

open Cert.KernelIdeal Cert.KernelIdeal.Gen

/-- Rows of a [100000, 64] array, a bias added to each and rectified at zero, times a [64, 40] array: entry by entry. -/
def layer (a : S100000x64.Idx → EReal) (b : S64.Idx → EReal) (w : S64x40.Idx → EReal) : S100000x40.Idx → EReal :=
  fun i => ∑ k : Fin 64, max (a (ix2 (i 0) k) + b (ix1 k)) (Ideal.ofBits .f32 0x00000000#32) * w (ix2 k (i 1))

theorem hz : (![0, 0] : Fin 2 → Nat) = fun _ => 0 := funext fun a => by fin_cases a <;> rfl
theorem hz1 : (![0] : Fin 1 → Nat) = fun _ => 0 := funext fun a => by fin_cases a; rfl

/-- The rectified, biased block at (p, k): the bias vector is laid out as one row and spread over the block's rows. -/
theorem rectified_apply (x0 : Vec Ideal S10000x64 .f32) (x1 : Vec Ideal S64 .f32) (p : Fin 10000) (k : Fin 64) :
    maximumf (addf (shapeCast S10000x64 x0 shapeCasts_S10000x64_S10000x64)
        (broadcastTo S10000x64 (shapeCast S1x64 x1 shapeCasts_S64_S1x64) broadcasts_S1x64_S10000x64))
      (broadcast S10000x64 (Scalar.ofBits (F := Ideal) .f32 0x00000000#32)) (ix2 p k)
      = max (x0 (ix2 p k) + x1 (ix1 k)) (Ideal.ofBits .f32 0x00000000#32) := by
  rw [maximumf_apply, addf_apply, shapeCast_self, broadcastTo_1b_ab_apply, shapeCast_a_1a_apply]
  rfl

/-- What the body stores, at entry (p, q) of the block. -/
theorem stored_apply (x0 : Vec Ideal S10000x64 .f32) (x1 : Vec Ideal S64 .f32) (x2 : Vec Ideal S64x40 .f32) (p : Fin 10000) (q : Fin 40) :
    k1_pay1 (F := Ideal) x0 x1 x2 (ix2 p q)
      = ∑ k : Fin 64, max (x0 (ix2 p k) + x1 (ix1 k)) (Ideal.ofBits .f32 0x00000000#32) * x2 (ix2 k q) := by
  unfold k1_pay1
  refine (matmul_plain_zero_apply 10000 64 40 none
    (truncf .bf16 (maximumf (addf (shapeCast S10000x64 x0 shapeCasts_S10000x64_S10000x64)
        (broadcastTo S10000x64 (shapeCast S1x64 x1 shapeCasts_S64_S1x64) broadcasts_S1x64_S10000x64))
      (broadcast S10000x64 (Scalar.ofBits (F := Ideal) .f32 0x00000000#32))) bitsLt_bf16_f32)
    (truncf .bf16 x2 bitsLt_bf16_f32) p q).trans ?_
  refine Finset.sum_congr rfl fun k _ => ?_
  exact congrArg (· * x2 (ix2 k q)) (rectified_apply x0 x1 p k)

/-- The printed index maps over the grid: the aggregated array's and the output's windows move down one block of rows
    per point, the bias and the weights stay. -/
theorem index_facts : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- Entry j of what point t stores is entry (block t's image of j) of the whole-array function of the three arrays as
    the region finds them. -/
theorem block_entry (c : Dev nD) (t : Fin cfg1.N) (j : S10000x40.Idx) :
    k1_pay1 (F := Ideal) (iblk1 V c 0 t) (iblk1 V c 1 t) (iblk1 V c 2 t) j
      = layer (V c main_v45) (V c main_arg4) (V c main_arg5) (((cfg1.win 3).blk t).view.emb j) := by
  obtain ⟨e00, e01, e10, e20, e21, e30, e31⟩ := index_facts t
  refine (congrArg (k1_pay1 (F := Ideal) (iblk1 V c 0 t) (iblk1 V c 1 t) (iblk1 V c 2 t)) (eq_ix2 j)).trans
    ((stored_apply (iblk1 V c 0 t) (iblk1 V c 1 t) (iblk1 V c 2 t) (j 0) (j 1)).trans ?_)
  unfold layer
  refine Finset.sum_congr rfl fun k _ => ?_
  have ha : (iblk1 V c 0 t : Vec Ideal S10000x64 .f32) (ix2 (j 0) k)
      = (V c main_v45 : S100000x64.Idx → EReal) (ix2 ((((cfg1.win 3).blk t).view.emb j) 0) k) := by
    show (V c main_v45 : S100000x64.Idx → EReal) (((cfg1.win 0).blk t).view.emb (ix2 (j 0) k)) = _
    refine congrArg _ (funext fun a => Fin.ext ?_)
    match a with
    | ⟨0, _⟩ => show win1_0.index t (0 : Fin 2) * 10000 + 1 * (j 0).val = win1_3.index t (0 : Fin 2) * 10000 + 1 * (j 0).val; rw [e00, e30]
    | ⟨1, _⟩ => show win1_0.index t (1 : Fin 2) * 64 + 1 * k.val = k.val; rw [e01]; omega
  have hb : (iblk1 V c 1 t : Vec Ideal S64 .f32) (ix1 k) = (V c main_arg4 : S64.Idx → EReal) (ix1 k) := by
    show (V c main_arg4 : S64.Idx → EReal) (((cfg1.win 1).blk t).view.emb (ix1 k)) = _
    refine congrArg _ (funext fun a => Fin.ext ?_)
    match a with
    | ⟨0, _⟩ => show win1_1.index t (0 : Fin 1) * 64 + 1 * k.val = k.val; rw [e10]; omega
  have hw : (iblk1 V c 2 t : Vec Ideal S64x40 .f32) (ix2 k (j 1))
      = (V c main_arg5 : S64x40.Idx → EReal) (ix2 k ((((cfg1.win 3).blk t).view.emb j) 1)) := by
    show (V c main_arg5 : S64x40.Idx → EReal) (((cfg1.win 2).blk t).view.emb (ix2 k (j 1))) = _
    refine congrArg _ (funext fun a => Fin.ext ?_)
    match a with
    | ⟨0, _⟩ => show win1_2.index t (0 : Fin 2) * 64 + 1 * k.val = k.val; rw [e20]; omega
    | ⟨1, _⟩ => show win1_2.index t (1 : Fin 2) * 40 + 1 * (j 1).val = win1_3.index t (1 : Fin 2) * 40 + 1 * (j 1).val; rw [e21, e31]
  rw [ha, hb, hw]

/-- What point t writes back is block t of the whole-array function. -/
theorem flushed_eq (c : Dev nD) (t : Fin cfg1.N) :
    (dat1 V c).flushed 3 t = ((cfg1.win 3).blk t).view.read (Elt Ideal) (layer (V c main_v45) (V c main_arg4) (V c main_arg5)) := by
  show (cfg1.win 3).cut (grid1.coords t) ((dat1 V c).after 3 t) = _
  rw [after1_3]
  unfold out1_3
  rw [View.canon_unit_zero hz]
  simp only [View.ld_unit_zero (S := S10000x64) hz, View.ld_unit_zero (S := S64) hz1, View.ld_unit_zero (S := S64x40) hz]
  funext j
  exact block_entry V c t j

/-- An index of the output array is in point t's block iff each coordinate is in the block's range on its axis. -/
theorem mem_blk (t : Fin cfg1.N) (i : S100000x40.Idx) :
    i ∈ ((cfg1.win 3).blk t).view.set ↔ ∀ a : Fin 2, win1_3.index t a * S10000x40.size a ≤ (i a).val ∧ (i a).val < win1_3.index t a * S10000x40.size a + S10000x40.size a := by
  show i ∈ ((View.whole main_v46).slice (win1_3.rect t)).set ↔ _
  rw [View.set_slice_whole, Rect.mem_set_unit]
  exact Iff.rfl

/-- Row r of the output array is written by point r / 10000. -/
theorem cover (i : S100000x40.Idx) : ∃ t : Fin cfg1.N, (cfg1.win 3).flush t = true ∧ i ∈ ((cfg1.win 3).blk t).view.set := by
  have hN : grid1.N = 10 := N_1
  have hi0 : (i 0).val < 100000 := (i 0).isLt
  have hi1 : (i 1).val < 40 := (i 1).isLt
  have ht : (i 0).val / 10000 < cfg1.N := by show (i 0).val / 10000 < grid1.N; omega
  obtain ⟨e00, e01, e10, e20, e21, e30, e31⟩ := index_facts ⟨(i 0).val / 10000, ht⟩
  refine ⟨⟨(i 0).val / 10000, ht⟩, flush1_3 _, ?_⟩
  rw [mem_blk]
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    rw [e30]; show (i 0).val / 10000 * 10000 ≤ (i 0).val ∧ (i 0).val < (i 0).val / 10000 * 10000 + 10000; omega
  | ⟨1, _⟩ =>
    show win1_3.index ⟨(i 0).val / 10000, ht⟩ (1 : Fin 2) * 40 ≤ (i 1).val ∧ (i 1).val < win1_3.index ⟨(i 0).val / 10000, ht⟩ (1 : Fin 2) * 40 + 40
    rw [e31]; omega

/-- After the region the output array holds the whole-array function of the three arrays the region read. -/
theorem final (c : Dev nD) : (dat1 V c).arrAt 3 cfg1.N = layer (V c main_v45) (V c main_arg4) (V c main_arg5) :=
  (dat1 V c).arrAt_eq_of_cover 3 (layer (V c main_v45) (V c main_arg4) (V c main_arg5)) (fun t _ => flushed_eq V c t) cover

end Cert.KernelIdeal.SecondProduct

end
-- ==== Proof.Through.lean ====
/-
  The idealized kernel's result, read through @main's seven segments, in the reference's vocabulary.

  The kernel's @main and the reference's @main apply the SAME host operations: the normalisation of the edge list (the
  source and target index vectors with the self loops appended, the degree sum, its inverse square root where positive,
  the edge weights scaled at both ends), then twice "gather rows, scale them by the edge weight, add them into the rows
  their targets name", then the bias. They differ only in how the two dense products are computed: the reference
  calls one matrix product each time; the kernel runs a region of ten row blocks (and, the second time, adds the first
  bias and rectifies inside the region). So the buffer contents at each boundary of the kernel's @main are the
  reference's stage values:
    * before the first region: the index vectors and the edge scale are the reference's, the arguments are untouched;
    * after it: its output array is x·W1, the reference's first product;
    * after the next stretch: the aggregated array is the reference's;
    * after the second region: its output array is max(aggregated + b1, 0)·W2, the reference's second product;
    * at the return: the result is the reference's result.
  A stretch's operations are never opened: each stretch is read once, its operands replaced by the reference's stages,
  and what is left is the same operations applied to the same stages.
-/
import proofs.«148476_j41360535061036_1_alg».proof.Proof.FirstProduct
import proofs.«148476_j41360535061036_1_alg».proof.Proof.SecondProduct
import proofs.«148476_j41360535061036_1_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.StableHlo

namespace Cert.KernelIdeal.Through

open Cert.KernelIdeal Cert.KernelIdeal.Gen Cert.ReferenceIdeal.Read

/-! ## The two dense products are the reference's -/

/-- The whole product x·W1, entry by entry, is the reference's first matrix product. -/
theorem prod_eq (x : S100000x128.Idx → EReal) (w : S128x64.Idx → EReal) :
    FirstProduct.prod x w = val_main_v32 (F := Ideal) x w := by
  funext i
  rw [val_main_v32_apply]
  unfold FirstProduct.prod
  refine Finset.sum_congr rfl fun k _ => ?_
  have el : (ix2 (i 0) k : S100000x128.Idx) = lidx_main_v32 i k :=
    funext fun a => Fin.ext (by match a with | ⟨0, _⟩ => rfl | ⟨1, _⟩ => rfl)
  have er : (ix2 k (i 1) : S128x64.Idx) = ridx_main_v32 i k :=
    funext fun a => Fin.ext (by match a with | ⟨0, _⟩ => rfl | ⟨1, _⟩ => rfl)
  rw [el, er]

/-- Bias, rectify, multiply by W2 — over the reference's aggregated array — is the reference's second matrix product
    of its rectified, biased rows. -/
theorem layer_eq (x0 : S100000x128.Idx → EReal) (x1 : S2x3200000.Idx → BitVec 32) (x2 : S3200000.Idx → EReal)
    (x3 : S128x64.Idx → EReal) (x4 : S64.Idx → EReal) (x5 : S64x40.Idx → EReal) :
    SecondProduct.layer (val_main_v45 (F := Ideal) x0 x1 x2 x3) x4 x5 = val_main_v50 (F := Ideal) x0 x1 x2 x3 x4 x5 := by
  funext i
  rw [val_main_v50_apply]
  unfold SecondProduct.layer
  refine Finset.sum_congr rfl fun k _ => ?_
  have el : (ix2 (i 0) k : S100000x64.Idx) = lidx_main_v50 i k :=
    funext fun a => Fin.ext (by match a with | ⟨0, _⟩ => rfl | ⟨1, _⟩ => rfl)
  have er : (ix2 k (i 1) : S64x40.Idx) = ridx_main_v50 i k :=
    funext fun a => Fin.ext (by match a with | ⟨0, _⟩ => rfl | ⟨1, _⟩ => rfl)
  have eb : idx_main_v46 (idx_main_v47 (ix2 (i 0) k)) = (ix1 k : S64.Idx) :=
    funext fun a => Fin.ext (by match a with | ⟨0, _⟩ => rfl)
  rw [← el, ← er, val_main_v49_apply, val_main_v48_apply, val_main_v47_apply, val_main_v46_apply,
    val_main_call1_v0_apply, val_main_call1_cst_apply, eb]
  rfl

variable (m : (ℓ : Loc nD τ sig) → Buf (Elt Ideal) ℓ) (ρ : Dev nD → PrngReg) (c : Dev nD)

set_option quotPrecheck false in
local notation "x0" => m ((c.tc : Thread nD τ).loc main_arg0)
set_option quotPrecheck false in
local notation "x1" => m ((c.tc : Thread nD τ).loc main_arg1)
set_option quotPrecheck false in
local notation "x2" => m ((c.tc : Thread nD τ).loc main_arg2)
set_option quotPrecheck false in
local notation "x3" => m ((c.tc : Thread nD τ).loc main_arg3)
set_option quotPrecheck false in
local notation "x4" => m ((c.tc : Thread nD τ).loc main_arg4)
set_option quotPrecheck false in
local notation "x5" => m ((c.tc : Thread nD τ).loc main_arg5)
set_option quotPrecheck false in
local notation "x6" => m ((c.tc : Thread nD τ).loc main_arg6)

/-! ## Before the first region: the first three stretches from the launch memory -/

/-! ### The first stretch: the index vectors, the weights with the self loops' ones appended, the degree sum, its
    comparison with zero and its inverse square root -/

/-- The source index vector (the edge list's first row, the self loops appended). -/
theorem W1_v3 : W1 m ρ c (Proc.devRef .tc main_v3) = val_main_v3 (F := Ideal) x1 := by
  dsimp only [W1, W0, hostOps0]
  after_results_simp <;> rfl
/-- The target index vector (the edge list's second row, the self loops appended). -/
theorem W1_v6 : W1 m ρ c (Proc.devRef .tc main_v6) = val_main_v6 (F := Ideal) x1 := by
  dsimp only [W1, W0, hostOps0]
  after_results_simp <;> rfl
/-- The edge weights, a one appended for every self loop. -/
theorem W1_v8 : W1 m ρ c (Proc.devRef .tc main_v8) = val_main_v8 (F := Ideal) x2 := by
  dsimp only [W1, W0, hostOps0]
  after_results_simp <;> rfl
/-- Where the degree (the weights added into their targets) is positive. -/
theorem W1_v13 : W1 m ρ c (Proc.devRef .tc main_v13) = val_main_v13 (F := Ideal) x1 x2 := by
  dsimp only [W1, W0, hostOps0]
  after_results_simp <;> rfl
/-- The inverse square root of the degree. -/
theorem W1_v14 : W1 m ρ c (Proc.devRef .tc main_v14) = val_main_v14 (F := Ideal) x1 x2 := by
  dsimp only [W1, W0, hostOps0]
  after_results_simp <;> rfl
/-- The zero that stands where the degree is not positive. -/
theorem W1_cst_2 : W1 m ρ c (Proc.devRef .tc main_cst_2) = val_main_cst_2 (F := Ideal) := by
  dsimp only [W1, W0, hostOps0]
  after_results_simp <;> rfl
/-- No operation writes an argument. -/
theorem W1_arg0 : W1 m ρ c (Proc.devRef .tc main_arg0) = x0 := by
  dsimp only [W1, W0, hostOps0]
  after_results_simp <;> rfl
theorem W1_arg3 : W1 m ρ c (Proc.devRef .tc main_arg3) = x3 := by
  dsimp only [W1, W0, hostOps0]
  after_results_simp <;> rfl
theorem W1_arg4 : W1 m ρ c (Proc.devRef .tc main_arg4) = x4 := by
  dsimp only [W1, W0, hostOps0]
  after_results_simp <;> rfl
theorem W1_arg5 : W1 m ρ c (Proc.devRef .tc main_arg5) = x5 := by
  dsimp only [W1, W0, hostOps0]
  after_results_simp <;> rfl
theorem W1_arg6 : W1 m ρ c (Proc.devRef .tc main_arg6) = x6 := by
  dsimp only [W1, W0, hostOps0]
  after_results_simp <;> rfl

/-! ### The second stretch: the choice between the inverse square root and zero -/

/-- The stretch's three operations from ANY contents: the first operand where the mask holds, elsewhere the scalar
    spread over the vector. -/
theorem choice_read (Wp : Valuation τ sig (Elt Ideal)) :
    StableHlo.after (hostOps0_1 (F := Ideal)) Wp (Proc.devRef .tc main_v15)
      = select (Wp (Proc.devRef .tc main_v13)) (Wp (Proc.devRef .tc main_v14))
          (broadcastInDim S100000 ![] bcast_S_S100000 (id (Wp (Proc.devRef .tc main_cst_2)))) := by
  dsimp only [hostOps0_1]
  after_results_simp <;> rfl

/-- The inverse square root of the degree where it is positive, zero elsewhere. -/
theorem W2_v15 : W2 m ρ c (Proc.devRef .tc main_v15) = val_main_v15 (F := Ideal) x1 x2 := by
  refine (choice_read (W1 m ρ c)).trans ?_
  rw [W1_v13 m ρ c, W1_v14 m ρ c, W1_cst_2 m ρ c]
  rfl
/-- The stretch writes none of these. -/
theorem W2_v3 : W2 m ρ c (Proc.devRef .tc main_v3) = val_main_v3 (F := Ideal) x1 := by
  dsimp only [W2]
  generalize hW : W1 m ρ c = Wp
  dsimp only [hostOps0_1]
  after_results_simp
  subst hW
  exact W1_v3 m ρ c
theorem W2_v6 : W2 m ρ c (Proc.devRef .tc main_v6) = val_main_v6 (F := Ideal) x1 := by
  dsimp only [W2]
  generalize hW : W1 m ρ c = Wp
  dsimp only [hostOps0_1]
  after_results_simp
  subst hW
  exact W1_v6 m ρ c
theorem W2_v8 : W2 m ρ c (Proc.devRef .tc main_v8) = val_main_v8 (F := Ideal) x2 := by
  dsimp only [W2]
  generalize hW : W1 m ρ c = Wp
  dsimp only [hostOps0_1]
  after_results_simp
  subst hW
  exact W1_v8 m ρ c
theorem W2_arg0 : W2 m ρ c (Proc.devRef .tc main_arg0) = x0 := by
  dsimp only [W2]
  generalize hW : W1 m ρ c = Wp
  dsimp only [hostOps0_1]
  after_results_simp
  subst hW
  exact W1_arg0 m ρ c
theorem W2_arg3 : W2 m ρ c (Proc.devRef .tc main_arg3) = x3 := by
  dsimp only [W2]
  generalize hW : W1 m ρ c = Wp
  dsimp only [hostOps0_1]
  after_results_simp
  subst hW
  exact W1_arg3 m ρ c
theorem W2_arg4 : W2 m ρ c (Proc.devRef .tc main_arg4) = x4 := by
  dsimp only [W2]
  generalize hW : W1 m ρ c = Wp
  dsimp only [hostOps0_1]
  after_results_simp
  subst hW
  exact W1_arg4 m ρ c
theorem W2_arg5 : W2 m ρ c (Proc.devRef .tc main_arg5) = x5 := by
  dsimp only [W2]
  generalize hW : W1 m ρ c = Wp
  dsimp only [hostOps0_1]
  after_results_simp
  subst hW
  exact W1_arg5 m ρ c
theorem W2_arg6 : W2 m ρ c (Proc.devRef .tc main_arg6) = x6 := by
  dsimp only [W2]
  generalize hW : W1 m ρ c = Wp
  dsimp only [hostOps0_1]
  after_results_simp
  subst hW
  exact W1_arg6 m ρ c

/-! ### The third stretch: the edge scale -/

set_option maxHeartbeats 4000000 in
/-- The edge scale: the weight times the inverse square root of the degree at both ends. -/
theorem W3_v31 : W3 m ρ c (Proc.devRef .tc main_v31) = val_main_v31 (F := Ideal) x1 x2 := by
  dsimp only [W3]
  generalize hW : W2 m ρ c = Wp
  dsimp only [hostOps0_2]
  after_results_simp
  subst hW
  rw [W2_v15 m ρ c, W2_v3 m ρ c, W2_v6 m ρ c, W2_v8 m ρ c]
  rfl
/-- The stretch writes none of these. -/
theorem W3_v3 : W3 m ρ c (Proc.devRef .tc main_v3) = val_main_v3 (F := Ideal) x1 := by
  dsimp only [W3]
  generalize hW : W2 m ρ c = Wp
  dsimp only [hostOps0_2]
  after_results_simp
  subst hW
  exact W2_v3 m ρ c
theorem W3_v6 : W3 m ρ c (Proc.devRef .tc main_v6) = val_main_v6 (F := Ideal) x1 := by
  dsimp only [W3]
  generalize hW : W2 m ρ c = Wp
  dsimp only [hostOps0_2]
  after_results_simp
  subst hW
  exact W2_v6 m ρ c
theorem W3_arg0 : W3 m ρ c (Proc.devRef .tc main_arg0) = x0 := by
  dsimp only [W3]
  generalize hW : W2 m ρ c = Wp
  dsimp only [hostOps0_2]
  after_results_simp
  subst hW
  exact W2_arg0 m ρ c
theorem W3_arg3 : W3 m ρ c (Proc.devRef .tc main_arg3) = x3 := by
  dsimp only [W3]
  generalize hW : W2 m ρ c = Wp
  dsimp only [hostOps0_2]
  after_results_simp
  subst hW
  exact W2_arg3 m ρ c
theorem W3_arg4 : W3 m ρ c (Proc.devRef .tc main_arg4) = x4 := by
  dsimp only [W3]
  generalize hW : W2 m ρ c = Wp
  dsimp only [hostOps0_2]
  after_results_simp
  subst hW
  exact W2_arg4 m ρ c
theorem W3_arg5 : W3 m ρ c (Proc.devRef .tc main_arg5) = x5 := by
  dsimp only [W3]
  generalize hW : W2 m ρ c = Wp
  dsimp only [hostOps0_2]
  after_results_simp
  subst hW
  exact W2_arg5 m ρ c
theorem W3_arg6 : W3 m ρ c (Proc.devRef .tc main_arg6) = x6 := by
  dsimp only [W3]
  generalize hW : W2 m ρ c = Wp
  dsimp only [hostOps0_2]
  after_results_simp
  subst hW
  exact W2_arg6 m ρ c

/-! ## After the first region -/

/-- The first region's output array is the reference's first product. -/
theorem W4_v32 : W4 m ρ c (Proc.devRef .tc main_v32) = val_main_v32 (F := Ideal) x0 x3 := by
  refine (W4_arr m ρ c 2).trans ((FirstProduct.final (V3 m ρ) c).trans ?_)
  have h0 : V3 m ρ c main_arg0 = x0 := W3_arg0 m ρ c
  have h3 : V3 m ρ c main_arg3 = x3 := W3_arg3 m ρ c
  rw [h0, h3]
  exact prod_eq _ _

/-- The region leaves every buffer that is not one of its three arrays as it found it. -/
theorem W4_v3 : W4 m ρ c (Proc.devRef .tc main_v3) = val_main_v3 (F := Ideal) x1 :=
  (W4_of_ne m ρ c main_v3 (by decide)).trans (W3_v3 m ρ c)
theorem W4_v6 : W4 m ρ c (Proc.devRef .tc main_v6) = val_main_v6 (F := Ideal) x1 :=
  (W4_of_ne m ρ c main_v6 (by decide)).trans (W3_v6 m ρ c)
theorem W4_v31 : W4 m ρ c (Proc.devRef .tc main_v31) = val_main_v31 (F := Ideal) x1 x2 :=
  (W4_of_ne m ρ c main_v31 (by decide)).trans (W3_v31 m ρ c)
theorem W4_arg4 : W4 m ρ c (Proc.devRef .tc main_arg4) = x4 :=
  (W4_of_ne m ρ c main_arg4 (by decide)).trans (W3_arg4 m ρ c)
theorem W4_arg5 : W4 m ρ c (Proc.devRef .tc main_arg5) = x5 :=
  (W4_of_ne m ρ c main_arg5 (by decide)).trans (W3_arg5 m ρ c)
theorem W4_arg6 : W4 m ρ c (Proc.devRef .tc main_arg6) = x6 :=
  (W4_of_ne m ρ c main_arg6 (by decide)).trans (W3_arg6 m ρ c)

/-! ## After the stretch between the regions -/

set_option maxHeartbeats 8000000 in
/-- The aggregated array: rows of the first product gathered by source, scaled, added into their targets' rows. -/
theorem W5_v45 : W5 m ρ c (Proc.devRef .tc main_v45) = val_main_v45 (F := Ideal) x0 x1 x2 x3 := by
  dsimp only [W5, hostOps1]
  after_results_simp
  rw [W4_v32 m ρ c, W4_v3 m ρ c, W4_v6 m ρ c, W4_v31 m ρ c]
  rfl

/-- The stretch writes none of these. -/
theorem W5_v3 : W5 m ρ c (Proc.devRef .tc main_v3) = val_main_v3 (F := Ideal) x1 := by
  dsimp only [W5, hostOps1]; after_results; exact W4_v3 m ρ c
theorem W5_v6 : W5 m ρ c (Proc.devRef .tc main_v6) = val_main_v6 (F := Ideal) x1 := by
  dsimp only [W5, hostOps1]; after_results; exact W4_v6 m ρ c
theorem W5_v31 : W5 m ρ c (Proc.devRef .tc main_v31) = val_main_v31 (F := Ideal) x1 x2 := by
  dsimp only [W5, hostOps1]; after_results; exact W4_v31 m ρ c
theorem W5_arg4 : W5 m ρ c (Proc.devRef .tc main_arg4) = x4 := by
  dsimp only [W5, hostOps1]; after_results; exact W4_arg4 m ρ c
theorem W5_arg5 : W5 m ρ c (Proc.devRef .tc main_arg5) = x5 := by
  dsimp only [W5, hostOps1]; after_results; exact W4_arg5 m ρ c
theorem W5_arg6 : W5 m ρ c (Proc.devRef .tc main_arg6) = x6 := by
  dsimp only [W5, hostOps1]; after_results; exact W4_arg6 m ρ c

/-! ## After the second region -/

/-- The second region's output array is the reference's second product. -/
theorem W6_v46 : W6 m ρ c (Proc.devRef .tc main_v46) = val_main_v50 (F := Ideal) x0 x1 x2 x3 x4 x5 := by
  refine (W6_arr m ρ c 3).trans ((SecondProduct.final (V5 m ρ) c).trans ?_)
  have h45 : V5 m ρ c main_v45 = val_main_v45 (F := Ideal) x0 x1 x2 x3 := W5_v45 m ρ c
  have h4 : V5 m ρ c main_arg4 = x4 := W5_arg4 m ρ c
  have h5 : V5 m ρ c main_arg5 = x5 := W5_arg5 m ρ c
  rw [h45, h4, h5]
  exact layer_eq _ _ _ _ _ _

theorem W6_v3 : W6 m ρ c (Proc.devRef .tc main_v3) = val_main_v3 (F := Ideal) x1 :=
  (W6_of_ne m ρ c main_v3 (by decide)).trans (W5_v3 m ρ c)
theorem W6_v6 : W6 m ρ c (Proc.devRef .tc main_v6) = val_main_v6 (F := Ideal) x1 :=
  (W6_of_ne m ρ c main_v6 (by decide)).trans (W5_v6 m ρ c)
theorem W6_v31 : W6 m ρ c (Proc.devRef .tc main_v31) = val_main_v31 (F := Ideal) x1 x2 :=
  (W6_of_ne m ρ c main_v31 (by decide)).trans (W5_v31 m ρ c)
theorem W6_arg6 : W6 m ρ c (Proc.devRef .tc main_arg6) = x6 :=
  (W6_of_ne m ρ c main_arg6 (by decide)).trans (W5_arg6 m ρ c)

/-! ## At the return -/

set_option maxHeartbeats 8000000 in
/-- The result: rows of the second product gathered by source, scaled, added into their targets' rows, the second
    bias added — the reference's result. -/
theorem W7_v62 : W7 m ρ c (Proc.devRef .tc main_v62) = val_main_v66 (F := Ideal) x0 x1 x2 x3 x4 x5 x6 := by
  dsimp only [W7, hostOps2]
  after_results_simp
  rw [W6_v46 m ρ c, W6_v3 m ρ c, W6_v6 m ρ c, W6_v31 m ρ c, W6_arg6 m ρ c]
  rfl

end Cert.KernelIdeal.Through

end
-- ==== Proof.lean ====
/-
  A two-layer graph convolution: the kernel against its reference, on the extended reals.

  Both programs normalise the edge list once (self loops appended; every edge weight multiplied by the inverse square
  root of the degree of its source and of its target, zero where the degree is not positive) and then compute, with A the
  normalised adjacency as a "gather rows by source, scale, add into the rows the targets name" operator,

      out = A · ( max(A · (x · W1) + b1, 0) · W2 ) + b2 .

  The reference spells the two dense products x·W1 and max(…)·W2 as one matrix product each. The kernel computes each
  in a region of ten points, point t producing rows 10000·t … 10000·t + 9999 of the product from the same rows of the left
  array and the whole right array (the second region also adds b1 and rectifies before multiplying); it narrows the
  operands to bf16 first, which on extended reals is the identity. A row block of a product is the product of the row
  block, and the ten blocks tile the 100000 rows: so each region's output array is the reference's product
  (Proof/FirstProduct.lean, Proof/SecondProduct.lean). Every other operation is the same operation in both programs,
  applied to values that are then equal, so the results are equal (Proof/Through.lean follows the values through the
  kernel's @main; Proof/KernelRun.lean is its run with every buffer named). No law of arithmetic beyond the definition
  of a matrix product is used, so the finiteness of the inputs is never needed; the idealized kernel is the kernel's own
  text read on the extended reals (no rewrite was applied), so there is nothing to preserve.
-/
import proofs.«148476_j41360535061036_1_alg».proof.Defs
import proofs.«148476_j41360535061036_1_alg».proof.Proof.KernelRun
import proofs.«148476_j41360535061036_1_alg».proof.Proof.Through
import proofs.«148476_j41360535061036_1_alg».proof.Proof.Gen.Kernel
import proofs.«148476_j41360535061036_1_alg».proof.Proof.Gen.Kernel.Skeleton
import proofs.«148476_j41360535061036_1_alg».proof.Proof.Gen.Kernel.Launch
import proofs.«148476_j41360535061036_1_alg».proof.Proof.Gen.Kernel.Points
import proofs.«148476_j41360535061036_1_alg».proof.Proof.Gen.Kernel.Frame
import proofs.«148476_j41360535061036_1_alg».proof.Proof.Gen.KernelIdeal
import proofs.«148476_j41360535061036_1_alg».proof.Proof.Gen.KernelIdeal.Skeleton
import proofs.«148476_j41360535061036_1_alg».proof.Proof.Gen.KernelIdeal.Launch
import proofs.«148476_j41360535061036_1_alg».proof.Proof.Gen.KernelIdeal.Points
import proofs.«148476_j41360535061036_1_alg».proof.Proof.Gen.KernelIdeal.Frame
import proofs.«148476_j41360535061036_1_alg».proof.Proof.Gen.ReferenceIdeal
import proofs.«148476_j41360535061036_1_alg».proof.Proof.Gen.ReferenceIdeal.Run
import proofs.«148476_j41360535061036_1_alg».proof.Proof.Gen.ReferenceIdeal.Read
import proofs.«148476_j41360535061036_1_alg».proof.Proof.Gen.Pre_finite_inputs
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten to idealize it. -/
theorem preserves : Cert.preserves_Kernel_KernelIdeal := trivial

/-- From memories that agree on the seven arguments both programs end with the reference's result of those arguments:
    the kernel because its last boundary's contents at the result buffer are that value, the reference by its run. -/
theorem algebraic : Cert.algebraic_KernelIdeal_ReferenceIdeal := by
  intro m ρ m' ρ' _ hagree
  refine ⟨fun c => Cert.ReferenceIdeal.Read.val_main_v66 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Through.W7_v62 m ρ c), (h c).2⟩)
      (Cert.KernelIdeal.Whole.run_result (F := Ideal) m ρ)
  · refine (θ_run Cert.ReferenceIdeal.defs _ _).mono (fun _ h c => ⟨?_, (h c).2⟩)
      (Cert.ReferenceIdeal.Value.run (F := Ideal) m' ρ')
    refine (h c).1.trans ((Cert.ReferenceIdeal.Read.val_main_v66_eq m' c).trans ?_)
    obtain ⟨a0, a1, a2, a3, a4, a5, a6⟩ := hagree c
    rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
